-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part5 {F : FTy → Type} [FloatOps F] (main_arg18 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  main_v93

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x2048 .f32) (main_arg1 : FVec F S8192x2048 .f32) (main_arg2 : FVec F S8192x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x128 : Shape := ⟨2, ![512, 128]⟩
abbrev S128x2048 : Shape := ⟨2, ![128, 2048]⟩
abbrev S1x128 : Shape := ⟨2, ![1, 128]⟩
abbrev S512x4096 : Shape := ⟨2, ![512, 4096]⟩
abbrev S128x4096 : Shape := ⟨2, ![128, 4096]⟩

abbrev nBuf : Space → Nat
  | .hbm => 37
  | .vmem => 34
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x128, .f32⟩
  | .local _ .vmem, ⟨5, _⟩ => ⟨S512x128, .f32⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S512x128_S512x128_0_0 : ∀ a, (![0, 0] : Fin 2 → Nat) a + S512x128.size a ≤ S512x128.size a
  h_S512x128 : 0 < S512x128.numel
  concatenates_S512x2048_S512x2048_S512x4096_d1 : Shape.Concatenates [S512x2048, S512x2048] S512x4096 1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  concatenates_S128x2048_S128x2048_S128x4096_d1 : Shape.Concatenates [S128x2048, S128x2048] S128x4096 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  dot_S512x4096_S128x4096_S512x128_1_1_0_0_n_n_wf : DotDims.WF S512x4096 S128x4096 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x2048.size a
  hwx0_2 : ∀ i : grid0.Coords, EltTy.bits .f32 = 32 ∨ (Rect.block (s := S8192x2048) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S2048x2048.size a
  hwx0_3 : ∀ i : grid0.Coords, EltTy.bits .bf16 = 32 ∨ (Rect.block (s := S2048x2048) S128x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S2048x2048.size a
  hwx0_4 : ∀ i : grid0.Coords, EltTy.bits .bf16 = 32 ∨ (Rect.block (s := S2048x2048) S128x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x2048.size a
  hwx0_5 : ∀ i : grid0.Coords, EltTy.bits .bf16 = 32 ∨ (Rect.block (s := S2048x2048) S128x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S2048x2048.size a
  hwx0_6 : ∀ i : grid0.Coords, EltTy.bits .bf16 = 32 ∨ (Rect.block (s := S2048x2048) S128x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S2048x2048.size a
  hwx0_7 : ∀ i : grid0.Coords, EltTy.bits .bf16 = 32 ∨ (Rect.block (s := S2048x2048) S128x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S2048x2048.size a
  hwx0_8 : ∀ i : grid0.Coords, EltTy.bits .bf16 = 32 ∨ (Rect.block (s := S2048x2048) S128x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S2048x2048.size a
  hwx0_9 : ∀ i : grid0.Coords, EltTy.bits .bf16 = 32 ∨ (Rect.block (s := S2048x2048) S128x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S2048x2048.size a
  hwx0_10 : ∀ i : grid0.Coords, EltTy.bits .bf16 = 32 ∨ (Rect.block (s := S2048x2048) S128x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x2048.size a
  hwx0_11 : ∀ i : grid0.Coords, EltTy.bits .f32 = 32 ∨ (Rect.block (s := S1x2048) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x2048.size a
  hwx0_12 : ∀ i : grid0.Coords, EltTy.bits .f32 = 32 ∨ (Rect.block (s := S1x2048) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x2048.size a
  hwx0_13 : ∀ i : grid0.Coords, EltTy.bits .f32 = 32 ∨ (Rect.block (s := S1x2048) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x2048.size a
  hwx0_14 : ∀ i : grid0.Coords, EltTy.bits .f32 = 32 ∨ (Rect.block (s := S1x2048) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x128.size a ≤ S8192x2048.size a
  hwx0_15 : ∀ i : grid0.Coords, EltTy.bits .f32 = 32 ∨ (Rect.block (s := S8192x2048) S512x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x128.size a ≤ S8192x2048.size a
  hwx0_16 : ∀ i : grid0.Coords, EltTy.bits .f32 = 32 ∨ (Rect.block (s := S8192x2048) S512x128.size (cc0_transform_16 i) (hinb0_16 i)).WholeWords (EltTy.packing .f32)

variable [Facts₀]

def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S128x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6) S128x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7) S128x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v16_0) S512x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v16_1) S512x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S8192 : Shape := ⟨1, ![8192]⟩
abbrev S2048x8192 : Shape := ⟨2, ![2048, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S8192x2048, .f32⟩
  | .hbm, ⟨20, _⟩ => ⟨S8192x2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S8192, .f32⟩
  | .hbm, ⟨26, _⟩ => ⟨S2048x8192, .f32⟩
  | .hbm, ⟨27, _⟩ => ⟨S8192x8192, .f32⟩
  | .hbm, ⟨28, _⟩ => ⟨S2048x8192, .f32⟩
  | .hbm, ⟨29, _⟩ => ⟨S8192x8192, .f32⟩
  | .hbm, ⟨30, _⟩ => ⟨S8192x8192, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  transposes_S8192x2048_S2048x8192_1_0 : S8192x2048.Transposes [1, 0] S2048x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  bcast_S_S8192x2048 : S_.BroadcastsInDim S8192x2048 (![] : Fin 0 → Fin S8192x2048.rank)
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.LibDotRows.lean ====
/-
  A matrix product in which BOTH operands are contracted along their last axis — an [a, K] matrix against an
  [b, K] matrix, the product x · Wᵀ of a linear layer whose weight is stored output-major — read at an entry
  written by coordinates: entry (p, q) is the sum over k < K of row p of the left operand times row q of the right.
  At the ideal values the accumulator 0 adds nothing and no rounding or chunk order is left in the sum.
-/
import Idealize.ShloMosaic.PureOps.Ideal.Laws
import Idealize.ShloMosaic.Lib.ValueIdx

noncomputable section

namespace Cert.LibDotRows

open Idealize.ShloMosaic Idealize.ShloMosaic.ValueIdx

/-- Entry (p, q) of an [a, K] × [b, K] product contracting the last axis of both operands, into the zero
    accumulator, is the sum over the contracted position k of the left row's entry (p, k) times the right row's
    entry (q, k). The four hypotheses on the dot's index maps are decided by unfolding them at a literal record. -/
theorem matmul_zero_rows_ix2 {a K b : ℕ} {φ₁ φ₂ : FTy}
    (d : DotDims (⟨2, ![a, K]⟩ : Shape) (⟨2, ![b, K]⟩ : Shape) (⟨2, ![a, b]⟩ : Shape))
    (hr : d.contr.rank = 1) (hs : d.contr.size ⟨0, by omega⟩ = K)
    (hlc : d.lhsContracting = [1]) (hrc : d.rhsContracting = [1])
    (hl0 : ∀ (j : (⟨2, ![a, b]⟩ : Shape).Idx) (q : d.contr.Idx), (d.lhsIdx j q 0).val = (j 0).val)
    (hr0 : ∀ (j : (⟨2, ![a, b]⟩ : Shape).Idx) (q : d.contr.Idx), (d.rhsIdx j q 0).val = (j 1).val)
    (prec : Option ContractPrecision)
    (lhs : FVec Ideal (⟨2, ![a, K]⟩ : Shape) φ₁) (rhs : FVec Ideal (⟨2, ![b, K]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 q k := funext fun ax => Fin.ext (by
    match ax with
    | ⟨0, _⟩ => exact hr0 _ _
    | ⟨1, _⟩ => exact (d.rhsIdx_val_of_single hrc _ _).trans hk)
  rw [el, er]

end Cert.LibDotRows

end
-- ==== Proof.LibJoinedDot.lean ====
/-
  Matrices joined side by side along their columns, and the product of two such joined matrices contracted
  along the joined axis.

  Write x = [x₁ | x₂] for an [a, K₁] block beside an [a, K₂] block, and w = [w₁ | w₂] likewise with b rows.
  Column k < K₁ of x is column k of x₁, and column K₁ + k is column k of x₂. Hence entry (p, q) of x · wᵀ,
  a sum over K₁ + K₂ positions, cuts at K₁ into the two sums x₁ · w₁ᵀ + x₂ · w₂ᵀ: the sum of two linear maps
  computed as one product over the stacked inputs. Only the cut of a finite sum is used, so the identity holds for
  every extended-real entry, infinite ones included.
-/
import Idealize.ShloMosaic.Lib.Pipeline.Value
import Idealize.ShloMosaic.Lib.ValueIdx
import proofs.«162844_j57990648430624_2_alg».proof.Proof.LibDotRows

noncomputable section

namespace Cert.LibJoinedDot

open Idealize.ShloMosaic Idealize.ShloMosaic.ValueIdx

variable {α : Type}

/-- In [x | y], a column of the first K₁ is that column of x. -/
theorem joinedCols_left {a K₁ K₂ : ℕ} (x : (⟨2, ![a, K₁]⟩ : Shape).Idx → α) (y : (⟨2, ![a, K₂]⟩ : Shape).Idx → α)
    (h : Shape.Concatenates [(⟨2, ![a, K₁]⟩ : Shape), ⟨2, ![a, K₂]⟩] ⟨2, ![a, K₁ + K₂]⟩ (1 : Fin 2)) (p : Fin a) (k : Fin K₁) :
    concatenate ⟨2, ![a, K₁ + K₂]⟩ (1 : Fin 2) [⟨⟨2, ![a, K₁]⟩, x⟩, ⟨⟨2, ![a, K₂]⟩, y⟩] h (ix2 p (Fin.castAdd K₂ k))
      = x (ix2 p k) :=
  concatenate_pair_apply_left (t := ⟨2, ![a, K₁ + K₂]⟩) (s₁ := ⟨2, ![a, K₁]⟩) (s₂ := ⟨2, ![a, K₂]⟩) (1 : Fin 2) x y h
    (ix2 p (Fin.castAdd K₂ k)) rfl (ix2 p k) (fun b => match b with | ⟨0, _⟩ => rfl | ⟨1, _⟩ => rfl)

/-- In [x | y], column K₁ + k is column k of y. -/
theorem joinedCols_right {a K₁ K₂ : ℕ} (x : (⟨2, ![a, K₁]⟩ : Shape).Idx → α) (y : (⟨2, ![a, K₂]⟩ : Shape).Idx → α)
    (h : Shape.Concatenates [(⟨2, ![a, K₁]⟩ : Shape), ⟨2, ![a, K₂]⟩] ⟨2, ![a, K₁ + K₂]⟩ (1 : Fin 2)) (p : Fin a) (k : Fin K₂) :
    concatenate ⟨2, ![a, K₁ + K₂]⟩ (1 : Fin 2) [⟨⟨2, ![a, K₁]⟩, x⟩, ⟨⟨2, ![a, K₂]⟩, y⟩] h (ix2 p (Fin.natAdd K₁ k))
      = y (ix2 p k) :=
  concatenate_pair_apply_right (t := ⟨2, ![a, K₁ + K₂]⟩) (s₁ := ⟨2, ![a, K₁]⟩) (s₂ := ⟨2, ![a, K₂]⟩) (1 : Fin 2) x y h
    (ix2 p (Fin.natAdd K₁ k)) rfl rfl (ix2 p k)
    (fun b hb => match b, hb with | ⟨0, _⟩, _ => rfl | ⟨1, _⟩, hb => absurd rfl hb)
    (show k.val + K₁ = K₁ + k.val from Nat.add_comm _ _)

/-- Entry (p, q) of [x₁ | x₂] · [w₁ | w₂]ᵀ, both operands contracted along their last axis into the zero
    accumulator, is (x₁ · w₁ᵀ)(p, q) + (x₂ · w₂ᵀ)(p, q). The hypotheses on the dot's index maps are those of
    the plain product of rows, decided at a literal record. -/
theorem matmul_zero_joined_rows_ix2 {a b K₁ K₂ : ℕ} {φ₁ φ₂ : FTy}
    (d : DotDims (⟨2, ![a, K₁ + K₂]⟩ : Shape) (⟨2, ![b, K₁ + K₂]⟩ : Shape) (⟨2, ![a, b]⟩ : Shape))
    (hr : d.contr.rank = 1) (hs : d.contr.size ⟨0, by omega⟩ = K₁ + K₂)
    (hlc : d.lhsContracting = [1]) (hrc : d.rhsContracting = [1])
    (hl0 : ∀ (j : (⟨2, ![a, b]⟩ : Shape).Idx) (q : d.contr.Idx), (d.lhsIdx j q 0).val = (j 0).val)
    (hr0 : ∀ (j : (⟨2, ![a, b]⟩ : Shape).Idx) (q : d.contr.Idx), (d.rhsIdx j q 0).val = (j 1).val)
    (prec : Option ContractPrecision)
    (x₁ : FVec Ideal (⟨2, ![a, K₁]⟩ : Shape) φ₁) (x₂ : FVec Ideal (⟨2, ![a, K₂]⟩ : Shape) φ₁)
    (w₁ : FVec Ideal (⟨2, ![b, K₁]⟩ : Shape) φ₂) (w₂ : FVec Ideal (⟨2, ![b, K₂]⟩ : Shape) φ₂)
    (hx : Shape.Concatenates [(⟨2, ![a, K₁]⟩ : Shape), ⟨2, ![a, K₂]⟩] ⟨2, ![a, K₁ + K₂]⟩ (1 : Fin 2))
    (hw : Shape.Concatenates [(⟨2, ![b, K₁]⟩ : Shape), ⟨2, ![b, K₂]⟩] ⟨2, ![b, K₁ + K₂]⟩ (1 : Fin 2))
    (p : Fin a) (q : Fin b) :
    FloatOps.matmul d prec
        (concatenate ⟨2, ![a, K₁ + K₂]⟩ (1 : Fin 2) [⟨⟨2, ![a, K₁]⟩, x₁⟩, ⟨⟨2, ![a, K₂]⟩, x₂⟩] hx : FVec Ideal _ φ₁)
        (concatenate ⟨2, ![b, K₁ + K₂]⟩ (1 : Fin 2) [⟨⟨2, ![b, K₁]⟩, w₁⟩, ⟨⟨2, ![b, K₂]⟩, w₂⟩] hw : FVec Ideal _ φ₂)
        (constant (⟨2, ![a, b]⟩ : Shape) .f32 0x00000000#32) (ix2 p q)
      = (∑ k : Fin K₁, x₁ (ix2 p k) * w₁ (ix2 q k)) + ∑ k : Fin K₂, x₂ (ix2 p k) * w₂ (ix2 q k) := by
  rw [Cert.LibDotRows.matmul_zero_rows_ix2 d hr hs hlc hrc hl0 hr0, Fin.sum_univ_add]
  congr 1
  · exact Finset.sum_congr rfl fun k _ => by rw [joinedCols_left, joinedCols_left]
  · exact Finset.sum_congr rfl fun k _ => by rw [joinedCols_right, joinedCols_right]

end Cert.LibJoinedDot

end
-- ==== Proof.TileValue.lean ====
/-
  The arithmetic of one grid step, entry by entry.

  A step holds 512 batch rows of the input x and of the previous hidden state h (all 2048 columns of each), the
  512 × 128 tile of the old cell state, and for each of the four gates the 128 rows of its two weight matrices
  and the 128 entries of its bias that belong to the step's hidden units. A gate's pre-activation is ONE product
  [x | h] · [Wx | Wh]ᵀ over 4096 positions plus the bias row repeated down the 512 rows; cut at 2048 it is
  x · Wxᵀ + h · Whᵀ + b. Narrowing a float to fewer bits is the identity on exact values, so the narrowed
  operands are the operands themselves. The two tiles written are then

      c' = σ(z_f) · c + σ(z_i) · tanh(z_g),      h' = σ(z_o) · tanh(c').
-/
import proofs.«162844_j57990648430624_2_alg».proof.Proof.Gen.KernelIdeal.Skeleton
import proofs.«162844_j57990648430624_2_alg».proof.Proof.LibJoinedDot
import Idealize.ShloMosaic.Lib.ValueLayout
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- The product keeps the left operand's row: its row index is the output's row. -/
theorem dot_lhs_row (j : S512x128.Idx) (r : dot_S512x4096_S128x4096_S512x128_1_1_0_0_n_n.contr.Idx) :
    (dot_S512x4096_S128x4096_S512x128_1_1_0_0_n_n.lhsIdx j r 0).val = (j 0).val := by
  unfold DotDims.lhsIdx
  rw [dif_neg (show ¬(0 : Fin S512x4096.rank) ∈ dot_S512x4096_S128x4096_S512x128_1_1_0_0_n_n.lhsBatch by decide),
    dif_pos (show (0 : Fin S512x4096.rank) ∈ dot_S512x4096_S128x4096_S512x128_1_1_0_0_n_n.lhsNonContracting by decide)]
  rfl

/-- The right operand is used by rows too: its row index is the output's column. -/
theorem dot_rhs_row (j : S512x128.Idx) (r : dot_S512x4096_S128x4096_S512x128_1_1_0_0_n_n.contr.Idx) :
    (dot_S512x4096_S128x4096_S512x128_1_1_0_0_n_n.rhsIdx j r 0).val = (j 1).val := by
  unfold DotDims.rhsIdx
  rw [dif_neg (show ¬(0 : Fin S128x4096.rank) ∈ dot_S512x4096_S128x4096_S512x128_1_1_0_0_n_n.rhsBatch by decide),
    dif_pos (show (0 : Fin S128x4096.rank) ∈ dot_S512x4096_S128x4096_S512x128_1_1_0_0_n_n.rhsNonContracting by decide)]
  rfl

/-- A gate's pre-activation on the tile, at row p and column q: x · Wxᵀ + h · Whᵀ + b. -/
def tileGate (x0 x1 : FVec Ideal S512x2048 .f32) (wa wb : FVec Ideal S128x2048 .bf16) (b : FVec Ideal S1x128 .f32)
    (p : Fin 512) (q : Fin 128) : EReal :=
  ((∑ k : Fin 2048, x0 (ix2 p k) * wa (ix2 q k)) + ∑ k : Fin 2048, x1 (ix2 p k) * wb (ix2 q k))
    + b (ix2 (0 : Fin 1) q)

/-- The new cell state on the tile. -/
def tileCell (x0 x1 : FVec Ideal S512x2048 .f32) (c : FVec Ideal S512x128 .f32)
    (wxi whi : FVec Ideal S128x2048 .bf16) (bi : FVec Ideal S1x128 .f32)
    (wxf whf : FVec Ideal S128x2048 .bf16) (bf : FVec Ideal S1x128 .f32)
    (wxg whg : FVec Ideal S128x2048 .bf16) (bg : FVec Ideal S1x128 .f32) (p : Fin 512) (q : Fin 128) : EReal :=
  Ideal.logistic (tileGate x0 x1 wxf whf bf p q) * c (ix2 p q)
    + Ideal.logistic (tileGate x0 x1 wxi whi bi p q) * Ideal.tanh (tileGate x0 x1 wxg whg bg p q)

/-- The joined product plus the repeated bias row is the gate's pre-activation. -/
theorem gate_entry (x0 x1 : FVec Ideal S512x2048 .f32) (wa wb : FVec Ideal S128x2048 .bf16) (b : FVec Ideal S1x128 .f32)
    (p : Fin 512) (q : Fin 128) :
    addf (matmul dot_S512x4096_S128x4096_S512x128_1_1_0_0_n_n none (k0_pay3 (F := Ideal) x0 x1) (k0_pay6 (F := Ideal) wa wb) (constant (F := Ideal) S512x128 .f32 0x00000000#32)) (broadcastTo S512x128 (shapeCast S1x128 b shapeCasts_S1x128_S1x128) broadcasts_S1x128_S512x128) (ix2 p q) = tileGate x0 x1 wa wb b p q := by
  rw [addf_apply]
  unfold tileGate
  congr 1
  · unfold k0_pay3 k0_pay6
    refine (Cert.LibJoinedDot.matmul_zero_joined_rows_ix2 (K₁ := 2048) (K₂ := 2048) dot_S512x4096_S128x4096_S512x128_1_1_0_0_n_n
      rfl rfl rfl rfl dot_lhs_row dot_rhs_row none _ _ _ _ _ _ p q).trans ?_
    rw [shapeCast_self, shapeCast_self]
    rfl
  · rw [broadcastTo_1b_ab_apply, shapeCast_self]

/-- The input gate on the tile. -/
theorem inputGate_entry (x0 x1 : FVec Ideal S512x2048 .f32) (wa wb : FVec Ideal S128x2048 .bf16) (b : FVec Ideal S1x128 .f32)
    (p : Fin 512) (q : Fin 128) :
    k0_pay4 (F := Ideal) x0 x1 wa wb b (ix2 p q) = Ideal.logistic (tileGate x0 x1 wa wb b p q) :=
  congrArg Ideal.logistic (gate_entry x0 x1 wa wb b p q)

/-- The forget gate on the tile. -/
theorem forgetGate_entry (x0 x1 : FVec Ideal S512x2048 .f32) (wa wb : FVec Ideal S128x2048 .bf16) (b : FVec Ideal S1x128 .f32)
    (p : Fin 512) (q : Fin 128) :
    k0_pay5 (F := Ideal) x0 x1 wa wb b (ix2 p q) = Ideal.logistic (tileGate x0 x1 wa wb b p q) :=
  congrArg Ideal.logistic (gate_entry x0 x1 wa wb b p q)

/-- The stored cell-state tile. -/
theorem cell_entry (x0 x1 : FVec Ideal S512x2048 .f32) (c : FVec Ideal S512x128 .f32)
    (wxi whi : FVec Ideal S128x2048 .bf16) (bi : FVec Ideal S1x128 .f32)
    (wxf whf : FVec Ideal S128x2048 .bf16) (bf : FVec Ideal S1x128 .f32)
    (wxg whg : FVec Ideal S128x2048 .bf16) (bg : FVec Ideal S1x128 .f32) (p : Fin 512) (q : Fin 128) :
    k0_pay1 (F := Ideal) c (k0_pay3 (F := Ideal) x0 x1) (k0_pay4 (F := Ideal) x0 x1 wxi whi bi) (k0_pay5 (F := Ideal) x0 x1 wxf whf bf)
        (k0_pay6 (F := Ideal) wxg whg) (constant (F := Ideal) S512x128 .f32 0x00000000#32) bg (ix2 p q)
      = tileCell x0 x1 c wxi whi bi wxf whf bf wxg whg bg p q := by
  show k0_pay5 (F := Ideal) x0 x1 wxf whf bf (ix2 p q) * c (ix2 p q)
      + k0_pay4 (F := Ideal) x0 x1 wxi whi bi (ix2 p q) * Ideal.tanh (addf (matmul dot_S512x4096_S128x4096_S512x128_1_1_0_0_n_n none (k0_pay3 (F := Ideal) x0 x1) (k0_pay6 (F := Ideal) wxg whg) (constant (F := Ideal) S512x128 .f32 0x00000000#32)) (broadcastTo S512x128 (shapeCast S1x128 bg shapeCasts_S1x128_S1x128) broadcasts_S1x128_S512x128) (ix2 p q)) = _
  rw [forgetGate_entry, inputGate_entry, gate_entry]
  rfl

/-- The stored hidden-state tile. -/
theorem hidden_entry (x0 x1 : FVec Ideal S512x2048 .f32) (c : FVec Ideal S512x128 .f32)
    (wxi whi : FVec Ideal S128x2048 .bf16) (bi : FVec Ideal S1x128 .f32)
    (wxf whf : FVec Ideal S128x2048 .bf16) (bf : FVec Ideal S1x128 .f32)
    (wxg whg : FVec Ideal S128x2048 .bf16) (bg : FVec Ideal S1x128 .f32)
    (wxo who : FVec Ideal S128x2048 .bf16) (bo : FVec Ideal S1x128 .f32) (p : Fin 512) (q : Fin 128) :
    k0_pay2 (F := Ideal) c (k0_pay3 (F := Ideal) x0 x1) (k0_pay4 (F := Ideal) x0 x1 wxi whi bi) (k0_pay5 (F := Ideal) x0 x1 wxf whf bf)
        (k0_pay6 (F := Ideal) wxg whg) (constant (F := Ideal) S512x128 .f32 0x00000000#32) bg wxo who bo (ix2 p q)
      = Ideal.logistic (tileGate x0 x1 wxo who bo p q) * Ideal.tanh (tileCell x0 x1 c wxi whi bi wxf whf bf wxg whg bg p q) := by
  show Ideal.logistic (addf (matmul dot_S512x4096_S128x4096_S512x128_1_1_0_0_n_n none (k0_pay3 (F := Ideal) x0 x1) (k0_pay6 (F := Ideal) wxo who) (constant (F := Ideal) S512x128 .f32 0x00000000#32)) (broadcastTo S512x128 (shapeCast S1x128 bo shapeCasts_S1x128_S1x128) broadcasts_S1x128_S512x128) (ix2 p q))
      * Ideal.tanh (k0_pay1 (F := Ideal) c (k0_pay3 (F := Ideal) x0 x1) (k0_pay4 (F := Ideal) x0 x1 wxi whi bi)
          (k0_pay5 (F := Ideal) x0 x1 wxf whf bf) (k0_pay6 (F := Ideal) wxg whg) (constant (F := Ideal) S512x128 .f32 0x00000000#32) bg (ix2 p q)) = _
  rw [gate_entry, cell_entry]

end Cert.KernelIdeal.Tile

end
-- ==== Proof.LstmSpec.lean ====
/-
  One step of an LSTM cell, entry by entry, on the extended reals.

  For a batch row p and a hidden unit q, each of the four gates has the pre-activation

      z(p, q) = Σ_k x(p, k) · Wx(q, k) + Σ_k h(p, k) · Wh(q, k) + (bx(q) + bh(q)),

  the input x and the previous hidden state h each against a weight matrix stored output-major, plus the two
  biases. With σ the logistic function, the new cell state and hidden state are

      c'(p, q) = σ(z_f) · c(p, q) + σ(z_i) · tanh(z_g),        h'(p, q) = σ(z_o) · tanh(c'(p, q)).

  The definitions below fix the order of every sum and product, so both programs are compared against one
  literal term; no rearrangement inside them is ever needed.
-/
import Idealize.ShloMosaic.PureOps.Ideal
import Idealize.ShloMosaic.Lib.ValueIdx

noncomputable section

namespace Cert.LstmCell

open Idealize.ShloMosaic Idealize.ShloMosaic.ValueIdx

/-- A batch of 8192 rows of 2048 extended reals. -/
abbrev Batch : Type := (⟨2, ![8192, 2048]⟩ : Shape).Idx → EReal
/-- A 2048 × 2048 weight matrix, row q the weights of hidden unit q. -/
abbrev Weight : Type := (⟨2, ![2048, 2048]⟩ : Shape).Idx → EReal
/-- A bias, one entry per hidden unit. -/
abbrev Bias : Type := (⟨1, ![2048]⟩ : Shape).Idx → EReal

/-- A gate's pre-activation at batch row p and hidden unit q. -/
def gate (x h : Batch) (Wx Wh : Weight) (bx bh : Bias) (p : Fin 8192) (q : Fin 2048) : EReal :=
  ((∑ k : Fin 2048, x (ix2 p k) * Wx (ix2 q k)) + ∑ k : Fin 2048, h (ix2 p k) * Wh (ix2 q k))
    + (bx (ix1 q) + bh (ix1 q))

/-- The new cell state: forget gate times the old state plus input gate times the candidate. -/
def cellNext (x h c : Batch) (Wxi : Weight) (bxi : Bias) (Whi : Weight) (bhi : Bias) (Wxf : Weight) (bxf : Bias)
    (Whf : Weight) (bhf : Bias) (Wxg : Weight) (bxg : Bias) (Whg : Weight) (bhg : Bias) : Batch := fun j =>
  Ideal.logistic (gate x h Wxf Whf bxf bhf (j 0) (j 1)) * c j
    + Ideal.logistic (gate x h Wxi Whi bxi bhi (j 0) (j 1)) * Ideal.tanh (gate x h Wxg Whg bxg bhg (j 0) (j 1))

/-- The new hidden state: output gate times tanh of the new cell state. -/
def hiddenNext (x h c : Batch) (Wxi : Weight) (bxi : Bias) (Whi : Weight) (bhi : Bias) (Wxf : Weight) (bxf : Bias)
    (Whf : Weight) (bhf : Bias) (Wxg : Weight) (bxg : Bias) (Whg : Weight) (bhg : Bias)
    (Wxo : Weight) (bxo : Bias) (Who : Weight) (bho : Bias) : Batch := fun j =>
  Ideal.logistic (gate x h Wxo Who bxo bho (j 0) (j 1))
    * Ideal.tanh (cellNext x h c Wxi bxi Whi bhi Wxf bxf Whf bhf Wxg bxg Whg bhg j)

end Cert.LstmCell

end
-- ==== Proof.ArrayValue.lean ====
/-
  From tiles to whole arrays.

  The grid has 16 × 16 steps. Step (i, j) reads rows 512 i … 512 i + 511 of x and of h (all columns), the
  512 × 128 tile of the old cell state at rows 512 i … and columns 128 j …, rows 128 j … 128 j + 127 of each
  of the eight weight matrices, and columns 128 j … of each of the four bias rows; it writes the tile at rows
  512 i …, columns 128 j … of the new hidden state and of the new cell state. Before the steps run, each weight
  matrix is narrowed to fewer bits (the identity on exact values) and each gate's two biases are added and laid
  out as one row. So entry (p, q) of a tile is entry (512 i + p, 128 j + q) of the cell's formula on the whole
  argument arrays; the 256 tiles cover the 8192 × 2048 array (entry (r, s) lies in the tile of step
  (r / 512, s / 128)), hence each result array IS that formula.
-/
import proofs.«162844_j57990648430624_2_alg».proof.Proof.Gen.KernelIdeal.Value
import proofs.«162844_j57990648430624_2_alg».proof.Proof.TileValue
import proofs.«162844_j57990648430624_2_alg».proof.Proof.LstmSpec
import Idealize.ShloMosaic.Lib.StableHlo.Run
import Idealize.ShloMosaic.Lib.ValueLayout
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.LstmCell
open Idealize.ShloMosaic.Pipeline (Dat)

variable (m : (ℓ : Loc nD τ sig) → Buf (Elt Ideal) ℓ) (ρ : Dev nD → PrngReg)

/-- The new cell state as a function of the argument arrays. -/
abbrev cellArr (c : Dev nD) : Batch := cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The new hidden state as a function of the argument arrays. -/
abbrev hiddenArr (c : Dev nD) : Batch := hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-! ## The arrays the steps read that are computed before them -/

/-- The narrowed copy of weight argument 3 holds the argument's own values. -/
theorem V_main_v0 (c : Dev nD) : (V m c main_v0 : S2048x2048.Idx → EReal) = ((m ((c : Thread nD τ).loc main_arg3)) : S2048x2048.Idx → EReal) := by
  dsimp only [Gen.V, Gen.hostOps0]; after_results; rfl

/-- The narrowed copy of weight argument 7 holds the argument's own values. -/
theorem V_main_v1 (c : Dev nD) : (V m c main_v1 : S2048x2048.Idx → EReal) = ((m ((c : Thread nD τ).loc main_arg7)) : S2048x2048.Idx → EReal) := by
  dsimp only [Gen.V, Gen.hostOps0]; after_results; rfl

/-- The narrowed copy of weight argument 11 holds the argument's own values. -/
theorem V_main_v2 (c : Dev nD) : (V m c main_v2 : S2048x2048.Idx → EReal) = ((m ((c : Thread nD τ).loc main_arg11)) : S2048x2048.Idx → EReal) := by
  dsimp only [Gen.V, Gen.hostOps0]; after_results; rfl

/-- The narrowed copy of weight argument 15 holds the argument's own values. -/
theorem V_main_v3 (c : Dev nD) : (V m c main_v3 : S2048x2048.Idx → EReal) = ((m ((c : Thread nD τ).loc main_arg15)) : S2048x2048.Idx → EReal) := by
  dsimp only [Gen.V, Gen.hostOps0]; after_results; rfl

/-- The narrowed copy of weight argument 5 holds the argument's own values. -/
theorem V_main_v4 (c : Dev nD) : (V m c main_v4 : S2048x2048.Idx → EReal) = ((m ((c : Thread nD τ).loc main_arg5)) : S2048x2048.Idx → EReal) := by
  dsimp only [Gen.V, Gen.hostOps0]; after_results; rfl

/-- The narrowed copy of weight argument 9 holds the argument's own values. -/
theorem V_main_v5 (c : Dev nD) : (V m c main_v5 : S2048x2048.Idx → EReal) = ((m ((c : Thread nD τ).loc main_arg9)) : S2048x2048.Idx → EReal) := by
  dsimp only [Gen.V, Gen.hostOps0]; after_results; rfl

/-- The narrowed copy of weight argument 13 holds the argument's own values. -/
theorem V_main_v6 (c : Dev nD) : (V m c main_v6 : S2048x2048.Idx → EReal) = ((m ((c : Thread nD τ).loc main_arg13)) : S2048x2048.Idx → EReal) := by
  dsimp only [Gen.V, Gen.hostOps0]; after_results; rfl

/-- The narrowed copy of weight argument 17 holds the argument's own values. -/
theorem V_main_v7 (c : Dev nD) : (V m c main_v7 : S2048x2048.Idx → EReal) = ((m ((c : Thread nD τ).loc main_arg17)) : S2048x2048.Idx → EReal) := by
  dsimp only [Gen.V, Gen.hostOps0]; after_results; rfl

/-- The bias row: arguments 4 and 6 added entry by entry, laid out as a 1 × 2048 row. -/
theorem V_main_v9 (c : Dev nD) : (V m c main_v9 : S1x2048.Idx → EReal)
    = shapeCast S1x2048 (addf (F := Ideal) (φ := .f32) (s := S2048) (m ((c : Thread nD τ).loc main_arg4)) (m ((c : Thread nD τ).loc main_arg6))) shapeCasts_S2048_S1x2048 := by
  dsimp only [Gen.V, Gen.hostOps0]; after_results; rfl

/-- The bias row: arguments 8 and 10 added entry by entry, laid out as a 1 × 2048 row. -/
theorem V_main_v11 (c : Dev nD) : (V m c main_v11 : S1x2048.Idx → EReal)
    = shapeCast S1x2048 (addf (F := Ideal) (φ := .f32) (s := S2048) (m ((c : Thread nD τ).loc main_arg8)) (m ((c : Thread nD τ).loc main_arg10))) shapeCasts_S2048_S1x2048 := by
  dsimp only [Gen.V, Gen.hostOps0]; after_results; rfl

/-- The bias row: arguments 12 and 14 added entry by entry, laid out as a 1 × 2048 row. -/
theorem V_main_v13 (c : Dev nD) : (V m c main_v13 : S1x2048.Idx → EReal)
    = shapeCast S1x2048 (addf (F := Ideal) (φ := .f32) (s := S2048) (m ((c : Thread nD τ).loc main_arg12)) (m ((c : Thread nD τ).loc main_arg14))) shapeCasts_S2048_S1x2048 := by
  dsimp only [Gen.V, Gen.hostOps0]; after_results; rfl

/-- The bias row: arguments 16 and 18 added entry by entry, laid out as a 1 × 2048 row. -/
theorem V_main_v15 (c : Dev nD) : (V m c main_v15 : S1x2048.Idx → EReal)
    = shapeCast S1x2048 (addf (F := Ideal) (φ := .f32) (s := S2048) (m ((c : Thread nD τ).loc main_arg16)) (m ((c : Thread nD τ).loc main_arg18))) shapeCasts_S2048_S1x2048 := by
  dsimp only [Gen.V, Gen.hostOps0]; after_results; rfl

/-! ## Which block each step reads: the index maps, decided over the 256 steps -/

/-- x, h, the old cell state and the second output move with the first output's row block (and the latter two with
    its column block); the output's block indices stay below 16. -/
theorem idx_rows : ∀ t : Fin cfg0.N,
    win0_0.index t (0 : Fin 2) = win0_15.index t (0 : Fin 2) ∧ win0_0.index t (1 : Fin 2) = 0
    ∧ win0_1.index t (0 : Fin 2) = win0_15.index t (0 : Fin 2) ∧ win0_1.index t (1 : Fin 2) = 0
    ∧ win0_2.index t (0 : Fin 2) = win0_15.index t (0 : Fin 2) ∧ win0_2.index t (1 : Fin 2) = win0_15.index t (1 : Fin 2)
    ∧ win0_16.index t (0 : Fin 2) = win0_15.index t (0 : Fin 2) ∧ win0_16.index t (1 : Fin 2) = win0_15.index t (1 : Fin 2)
    ∧ win0_15.index t (0 : Fin 2) ≤ 15 ∧ win0_15.index t (1 : Fin 2) ≤ 15 :=
  (by decide +kernel : ∀ t : Fin grid0.N, _)

/-- Each weight matrix is read at the row block of the output's column block, all columns. -/
theorem idx_weights : ∀ t : Fin cfg0.N,
    win0_3.index t (0 : Fin 2) = win0_15.index t (1 : Fin 2) ∧ win0_3.index t (1 : Fin 2) = 0
    ∧ win0_4.index t (0 : Fin 2) = win0_15.index t (1 : Fin 2) ∧ win0_4.index t (1 : Fin 2) = 0
    ∧ win0_5.index t (0 : Fin 2) = win0_15.index t (1 : Fin 2) ∧ win0_5.index t (1 : Fin 2) = 0
    ∧ win0_6.index t (0 : Fin 2) = win0_15.index t (1 : Fin 2) ∧ win0_6.index t (1 : Fin 2) = 0
    ∧ win0_7.index t (0 : Fin 2) = win0_15.index t (1 : Fin 2) ∧ win0_7.index t (1 : Fin 2) = 0
    ∧ win0_8.index t (0 : Fin 2) = win0_15.index t (1 : Fin 2) ∧ win0_8.index t (1 : Fin 2) = 0
    ∧ win0_9.index t (0 : Fin 2) = win0_15.index t (1 : Fin 2) ∧ win0_9.index t (1 : Fin 2) = 0
    ∧ win0_10.index t (0 : Fin 2) = win0_15.index t (1 : Fin 2) ∧ win0_10.index t (1 : Fin 2) = 0 :=
  (by decide +kernel : ∀ t : Fin grid0.N, _)

/-- Each bias row is read at the output's column block. -/
theorem idx_biases : ∀ t : Fin cfg0.N,
    win0_11.index t (0 : Fin 2) = 0 ∧ win0_11.index t (1 : Fin 2) = win0_15.index t (1 : Fin 2)
    ∧ win0_12.index t (0 : Fin 2) = 0 ∧ win0_12.index t (1 : Fin 2) = win0_15.index t (1 : Fin 2)
    ∧ win0_13.index t (0 : Fin 2) = 0 ∧ win0_13.index t (1 : Fin 2) = win0_15.index t (1 : Fin 2)
    ∧ win0_14.index t (0 : Fin 2) = 0 ∧ win0_14.index t (1 : Fin 2) = win0_15.index t (1 : Fin 2) :=
  (by decide +kernel : ∀ t : Fin grid0.N, _)

/-- Every pair of block indices below 16 is some step's. -/
theorem idx_onto15 : ∀ (q0 : Fin 16) (q1 : Fin 16), ∃ t : Fin cfg0.N, win0_15.index t = ![q0.val, q1.val] :=
  (by decide +kernel : ∀ (q0 : Fin 16) (q1 : Fin 16), ∃ t : Fin grid0.N, win0_15.index t = ![q0.val, q1.val])

theorem idx_onto16 : ∀ (q0 : Fin 16) (q1 : Fin 16), ∃ t : Fin cfg0.N, win0_16.index t = ![q0.val, q1.val] :=
  (by decide +kernel : ∀ (q0 : Fin 16) (q1 : Fin 16), ∃ t : Fin grid0.N, win0_16.index t = ![q0.val, q1.val])

/-! ## The blocks read, entry by entry: a block's coordinate is block index × block size + the coordinate inside -/

/-- Row p of the step's block of x is row 512 i + p of x. -/
theorem read_x (c : Dev nD) (t : Fin cfg0.N) (p : Fin 512) (k : Fin 2048) (P : Fin 8192)
    (hP : P.val = win0_15.index t (0 : Fin 2) * 512 + p.val) :
    iblk m c 0 t (ix2 p k) = ((m ((c : Thread nD τ).loc main_arg0)) : S8192x2048.Idx → EReal) (ix2 P k) := by
  obtain ⟨e00, e01, e10, e11, -⟩ := idx_rows t
  show V m c main_arg0 (((cfg0.win 0).blk t).view.emb (ix2 p k)) = _
  rw [V_main_arg0]
  refine congrArg _ ?_
  funext a; apply Fin.ext
  match a with
  | ⟨0, _⟩ => show win0_0.index t (0 : Fin 2) * 512 + 1 * p.val = P.val; rw [hP, e00]; omega
  | ⟨1, _⟩ => show win0_0.index t (1 : Fin 2) * 2048 + 1 * k.val = k.val; rw [e01]; omega

/-- Row p of the step's block of h is row 512 i + p of h. -/
theorem read_h (c : Dev nD) (t : Fin cfg0.N) (p : Fin 512) (k : Fin 2048) (P : Fin 8192)
    (hP : P.val = win0_15.index t (0 : Fin 2) * 512 + p.val) :
    iblk m c 1 t (ix2 p k) = ((m ((c : Thread nD τ).loc main_arg1)) : S8192x2048.Idx → EReal) (ix2 P k) := by
  obtain ⟨e00, e01, e10, e11, -⟩ := idx_rows t
  show V m c main_arg1 (((cfg0.win 1).blk t).view.emb (ix2 p k)) = _
  rw [V_main_arg1]
  refine congrArg _ ?_
  funext a; apply Fin.ext
  match a with
  | ⟨0, _⟩ => show win0_1.index t (0 : Fin 2) * 512 + 1 * p.val = P.val; rw [hP, e10]; omega
  | ⟨1, _⟩ => show win0_1.index t (1 : Fin 2) * 2048 + 1 * k.val = k.val; rw [e11]; omega

/-- Entry (p, q) of the step's tile of the old cell state is entry (512 i + p, 128 j + q). -/
theorem read_c (c : Dev nD) (t : Fin cfg0.N) (p : Fin 512) (q : Fin 128) (P : Fin 8192) (Q : Fin 2048) (hP : P.val = win0_15.index t (0 : Fin 2) * 512 + p.val) (hQ : Q.val = win0_15.index t (1 : Fin 2) * 128 + q.val) :
    iblk m c 2 t (ix2 p q) = ((m ((c : Thread nD τ).loc main_arg2)) : S8192x2048.Idx → EReal) (ix2 P Q) := by
  obtain ⟨-, -, -, -, e20, e21, -⟩ := idx_rows t
  show V m c main_arg2 (((cfg0.win 2).blk t).view.emb (ix2 p q)) = _
  rw [V_main_arg2]
  refine congrArg _ ?_
  funext a; apply Fin.ext
  match a with
  | ⟨0, _⟩ => show win0_2.index t (0 : Fin 2) * 512 + 1 * p.val = P.val; rw [hP, e20]; omega
  | ⟨1, _⟩ => show win0_2.index t (1 : Fin 2) * 128 + 1 * q.val = Q.val; rw [hQ, e21]; omega

/-- Row q of the step's block of weight argument 3 is row 128 j + q of the argument. -/
theorem read_w3 (c : Dev nD) (t : Fin cfg0.N) (q : Fin 128) (k : Fin 2048) (Q : Fin 2048)
    (hQ : Q.val = win0_15.index t (1 : Fin 2) * 128 + q.val) :
    iblk m c 3 t (ix2 q k) = ((m ((c : Thread nD τ).loc main_arg3)) : S2048x2048.Idx → EReal) (ix2 Q k) := by
  obtain ⟨e0, e1, -, -, -, -, -, -, -, -, -, -, -, -, -, -⟩ := idx_weights t
  show V m c main_v0 (((cfg0.win 3).blk t).view.emb (ix2 q k)) = _
  refine (congrFun (V_main_v0 m c) _).trans ?_
  refine congrArg _ ?_
  funext a; apply Fin.ext
  match a with
  | ⟨0, _⟩ => show win0_3.index t (0 : Fin 2) * 128 + 1 * q.val = Q.val; rw [hQ, e0]; omega
  | ⟨1, _⟩ => show win0_3.index t (1 : Fin 2) * 2048 + 1 * k.val = k.val; rw [e1]; omega

/-- Row q of the step's block of weight argument 7 is row 128 j + q of the argument. -/
theorem read_w4 (c : Dev nD) (t : Fin cfg0.N) (q : Fin 128) (k : Fin 2048) (Q : Fin 2048)
    (hQ : Q.val = win0_15.index t (1 : Fin 2) * 128 + q.val) :
    iblk m c 4 t (ix2 q k) = ((m ((c : Thread nD τ).loc main_arg7)) : S2048x2048.Idx → EReal) (ix2 Q k) := by
  obtain ⟨-, -, e0, e1, -, -, -, -, -, -, -, -, -, -, -, -⟩ := idx_weights t
  show V m c main_v1 (((cfg0.win 4).blk t).view.emb (ix2 q k)) = _
  refine (congrFun (V_main_v1 m c) _).trans ?_
  refine congrArg _ ?_
  funext a; apply Fin.ext
  match a with
  | ⟨0, _⟩ => show win0_4.index t (0 : Fin 2) * 128 + 1 * q.val = Q.val; rw [hQ, e0]; omega
  | ⟨1, _⟩ => show win0_4.index t (1 : Fin 2) * 2048 + 1 * k.val = k.val; rw [e1]; omega

/-- Row q of the step's block of weight argument 11 is row 128 j + q of the argument. -/
theorem read_w5 (c : Dev nD) (t : Fin cfg0.N) (q : Fin 128) (k : Fin 2048) (Q : Fin 2048)
    (hQ : Q.val = win0_15.index t (1 : Fin 2) * 128 + q.val) :
    iblk m c 5 t (ix2 q k) = ((m ((c : Thread nD τ).loc main_arg11)) : S2048x2048.Idx → EReal) (ix2 Q k) := by
  obtain ⟨-, -, -, -, e0, e1, -, -, -, -, -, -, -, -, -, -⟩ := idx_weights t
  show V m c main_v2 (((cfg0.win 5).blk t).view.emb (ix2 q k)) = _
  refine (congrFun (V_main_v2 m c) _).trans ?_
  refine congrArg _ ?_
  funext a; apply Fin.ext
  match a with
  | ⟨0, _⟩ => show win0_5.index t (0 : Fin 2) * 128 + 1 * q.val = Q.val; rw [hQ, e0]; omega
  | ⟨1, _⟩ => show win0_5.index t (1 : Fin 2) * 2048 + 1 * k.val = k.val; rw [e1]; omega

/-- Row q of the step's block of weight argument 15 is row 128 j + q of the argument. -/
theorem read_w6 (c : Dev nD) (t : Fin cfg0.N) (q : Fin 128) (k : Fin 2048) (Q : Fin 2048)
    (hQ : Q.val = win0_15.index t (1 : Fin 2) * 128 + q.val) :
    iblk m c 6 t (ix2 q k) = ((m ((c : Thread nD τ).loc main_arg15)) : S2048x2048.Idx → EReal) (ix2 Q k) := by
  obtain ⟨-, -, -, -, -, -, e0, e1, -, -, -, -, -, -, -, -⟩ := idx_weights t
  show V m c main_v3 (((cfg0.win 6).blk t).view.emb (ix2 q k)) = _
  refine (congrFun (V_main_v3 m c) _).trans ?_
  refine congrArg _ ?_
  funext a; apply Fin.ext
  match a with
  | ⟨0, _⟩ => show win0_6.index t (0 : Fin 2) * 128 + 1 * q.val = Q.val; rw [hQ, e0]; omega
  | ⟨1, _⟩ => show win0_6.index t (1 : Fin 2) * 2048 + 1 * k.val = k.val; rw [e1]; omega

/-- Row q of the step's block of weight argument 5 is row 128 j + q of the argument. -/
theorem read_w7 (c : Dev nD) (t : Fin cfg0.N) (q : Fin 128) (k : Fin 2048) (Q : Fin 2048)
    (hQ : Q.val = win0_15.index t (1 : Fin 2) * 128 + q.val) :
    iblk m c 7 t (ix2 q k) = ((m ((c : Thread nD τ).loc main_arg5)) : S2048x2048.Idx → EReal) (ix2 Q k) := by
  obtain ⟨-, -, -, -, -, -, -, -, e0, e1, -, -, -, -, -, -⟩ := idx_weights t
  show V m c main_v4 (((cfg0.win 7).blk t).view.emb (ix2 q k)) = _
  refine (congrFun (V_main_v4 m c) _).trans ?_
  refine congrArg _ ?_
  funext a; apply Fin.ext
  match a with
  | ⟨0, _⟩ => show win0_7.index t (0 : Fin 2) * 128 + 1 * q.val = Q.val; rw [hQ, e0]; omega
  | ⟨1, _⟩ => show win0_7.index t (1 : Fin 2) * 2048 + 1 * k.val = k.val; rw [e1]; omega

/-- Row q of the step's block of weight argument 9 is row 128 j + q of the argument. -/
theorem read_w8 (c : Dev nD) (t : Fin cfg0.N) (q : Fin 128) (k : Fin 2048) (Q : Fin 2048)
    (hQ : Q.val = win0_15.index t (1 : Fin 2) * 128 + q.val) :
    iblk m c 8 t (ix2 q k) = ((m ((c : Thread nD τ).loc main_arg9)) : S2048x2048.Idx → EReal) (ix2 Q k) := by
  obtain ⟨-, -, -, -, -, -, -, -, -, -, e0, e1, -, -, -, -⟩ := idx_weights t
  show V m c main_v5 (((cfg0.win 8).blk t).view.emb (ix2 q k)) = _
  refine (congrFun (V_main_v5 m c) _).trans ?_
  refine congrArg _ ?_
  funext a; apply Fin.ext
  match a with
  | ⟨0, _⟩ => show win0_8.index t (0 : Fin 2) * 128 + 1 * q.val = Q.val; rw [hQ, e0]; omega
  | ⟨1, _⟩ => show win0_8.index t (1 : Fin 2) * 2048 + 1 * k.val = k.val; rw [e1]; omega

/-- Row q of the step's block of weight argument 13 is row 128 j + q of the argument. -/
theorem read_w9 (c : Dev nD) (t : Fin cfg0.N) (q : Fin 128) (k : Fin 2048) (Q : Fin 2048)
    (hQ : Q.val = win0_15.index t (1 : Fin 2) * 128 + q.val) :
    iblk m c 9 t (ix2 q k) = ((m ((c : Thread nD τ).loc main_arg13)) : S2048x2048.Idx → EReal) (ix2 Q k) := by
  obtain ⟨-, -, -, -, -, -, -, -, -, -, -, -, e0, e1, -, -⟩ := idx_weights t
  show V m c main_v6 (((cfg0.win 9).blk t).view.emb (ix2 q k)) = _
  refine (congrFun (V_main_v6 m c) _).trans ?_
  refine congrArg _ ?_
  funext a; apply Fin.ext
  match a with
  | ⟨0, _⟩ => show win0_9.index t (0 : Fin 2) * 128 + 1 * q.val = Q.val; rw [hQ, e0]; omega
  | ⟨1, _⟩ => show win0_9.index t (1 : Fin 2) * 2048 + 1 * k.val = k.val; rw [e1]; omega

/-- Row q of the step's block of weight argument 17 is row 128 j + q of the argument. -/
theorem read_w10 (c : Dev nD) (t : Fin cfg0.N) (q : Fin 128) (k : Fin 2048) (Q : Fin 2048)
    (hQ : Q.val = win0_15.index t (1 : Fin 2) * 128 + q.val) :
    iblk m c 10 t (ix2 q k) = ((m ((c : Thread nD τ).loc main_arg17)) : S2048x2048.Idx → EReal) (ix2 Q k) := by
  obtain ⟨-, -, -, -, -, -, -, -, -, -, -, -, -, -, e0, e1⟩ := idx_weights t
  show V m c main_v7 (((cfg0.win 10).blk t).view.emb (ix2 q k)) = _
  refine (congrFun (V_main_v7 m c) _).trans ?_
  refine congrArg _ ?_
  funext a; apply Fin.ext
  match a with
  | ⟨0, _⟩ => show win0_10.index t (0 : Fin 2) * 128 + 1 * q.val = Q.val; rw [hQ, e0]; omega
  | ⟨1, _⟩ => show win0_10.index t (1 : Fin 2) * 2048 + 1 * k.val = k.val; rw [e1]; omega

/-- Entry q of the step's piece of the bias row is the sum of the two biases' entries 128 j + q. -/
theorem read_b11 (c : Dev nD) (t : Fin cfg0.N) (q : Fin 128) (Q : Fin 2048)
    (hQ : Q.val = win0_15.index t (1 : Fin 2) * 128 + q.val) :
    iblk m c 11 t (ix2 (0 : Fin 1) q)
      = FloatOps.addf (F := Ideal) (φ := .f32) ((m ((c : Thread nD τ).loc main_arg4)) (ix1 Q)) ((m ((c : Thread nD τ).loc main_arg6)) (ix1 Q)) := by
  obtain ⟨e0, e1, -, -, -, -, -, -⟩ := idx_biases t
  show V m c main_v9 (((cfg0.win 11).blk t).view.emb (ix2 (0 : Fin 1) q)) = _
  refine (congrFun (V_main_v9 m c) _).trans ?_
  have hj : ((cfg0.win 11).blk t).view.emb (ix2 (0 : Fin 1) q) = ix2 (0 : Fin 1) Q := by
    funext a; apply Fin.ext
    match a with
    | ⟨0, _⟩ => show win0_11.index t (0 : Fin 2) * 1 + 1 * 0 = 0; rw [e0]
    | ⟨1, _⟩ => show win0_11.index t (1 : Fin 2) * 128 + 1 * q.val = Q.val; rw [hQ, e1]; omega
  rw [hj, shapeCast_a_1a_apply]
  rfl

/-- Entry q of the step's piece of the bias row is the sum of the two biases' entries 128 j + q. -/
theorem read_b12 (c : Dev nD) (t : Fin cfg0.N) (q : Fin 128) (Q : Fin 2048)
    (hQ : Q.val = win0_15.index t (1 : Fin 2) * 128 + q.val) :
    iblk m c 12 t (ix2 (0 : Fin 1) q)
      = FloatOps.addf (F := Ideal) (φ := .f32) ((m ((c : Thread nD τ).loc main_arg8)) (ix1 Q)) ((m ((c : Thread nD τ).loc main_arg10)) (ix1 Q)) := by
  obtain ⟨-, -, e0, e1, -, -, -, -⟩ := idx_biases t
  show V m c main_v11 (((cfg0.win 12).blk t).view.emb (ix2 (0 : Fin 1) q)) = _
  refine (congrFun (V_main_v11 m c) _).trans ?_
  have hj : ((cfg0.win 12).blk t).view.emb (ix2 (0 : Fin 1) q) = ix2 (0 : Fin 1) Q := by
    funext a; apply Fin.ext
    match a with
    | ⟨0, _⟩ => show win0_12.index t (0 : Fin 2) * 1 + 1 * 0 = 0; rw [e0]
    | ⟨1, _⟩ => show win0_12.index t (1 : Fin 2) * 128 + 1 * q.val = Q.val; rw [hQ, e1]; omega
  rw [hj, shapeCast_a_1a_apply]
  rfl

/-- Entry q of the step's piece of the bias row is the sum of the two biases' entries 128 j + q. -/
theorem read_b13 (c : Dev nD) (t : Fin cfg0.N) (q : Fin 128) (Q : Fin 2048)
    (hQ : Q.val = win0_15.index t (1 : Fin 2) * 128 + q.val) :
    iblk m c 13 t (ix2 (0 : Fin 1) q)
      = FloatOps.addf (F := Ideal) (φ := .f32) ((m ((c : Thread nD τ).loc main_arg12)) (ix1 Q)) ((m ((c : Thread nD τ).loc main_arg14)) (ix1 Q)) := by
  obtain ⟨-, -, -, -, e0, e1, -, -⟩ := idx_biases t
  show V m c main_v13 (((cfg0.win 13).blk t).view.emb (ix2 (0 : Fin 1) q)) = _
  refine (congrFun (V_main_v13 m c) _).trans ?_
  have hj : ((cfg0.win 13).blk t).view.emb (ix2 (0 : Fin 1) q) = ix2 (0 : Fin 1) Q := by
    funext a; apply Fin.ext
    match a with
    | ⟨0, _⟩ => show win0_13.index t (0 : Fin 2) * 1 + 1 * 0 = 0; rw [e0]
    | ⟨1, _⟩ => show win0_13.index t (1 : Fin 2) * 128 + 1 * q.val = Q.val; rw [hQ, e1]; omega
  rw [hj, shapeCast_a_1a_apply]
  rfl

/-- Entry q of the step's piece of the bias row is the sum of the two biases' entries 128 j + q. -/
theorem read_b14 (c : Dev nD) (t : Fin cfg0.N) (q : Fin 128) (Q : Fin 2048)
    (hQ : Q.val = win0_15.index t (1 : Fin 2) * 128 + q.val) :
    iblk m c 14 t (ix2 (0 : Fin 1) q)
      = FloatOps.addf (F := Ideal) (φ := .f32) ((m ((c : Thread nD τ).loc main_arg16)) (ix1 Q)) ((m ((c : Thread nD τ).loc main_arg18)) (ix1 Q)) := by
  obtain ⟨-, -, -, -, -, -, e0, e1⟩ := idx_biases t
  show V m c main_v15 (((cfg0.win 14).blk t).view.emb (ix2 (0 : Fin 1) q)) = _
  refine (congrFun (V_main_v15 m c) _).trans ?_
  have hj : ((cfg0.win 14).blk t).view.emb (ix2 (0 : Fin 1) q) = ix2 (0 : Fin 1) Q := by
    funext a; apply Fin.ext
    match a with
    | ⟨0, _⟩ => show win0_14.index t (0 : Fin 2) * 1 + 1 * 0 = 0; rw [e0]
    | ⟨1, _⟩ => show win0_14.index t (1 : Fin 2) * 128 + 1 * q.val = Q.val; rw [hQ, e1]; omega
  rw [hj, shapeCast_a_1a_apply]
  rfl

/-! ## A tile's gate is the cell's gate at the tile's place -/

/-- If the tile's rows of x and h, its rows of the two weight matrices and its bias entry are those of the whole
    arrays at row P and hidden unit Q, the tile's pre-activation at (p, q) is the cell's at (P, Q). -/
theorem tileGate_eq_gate (x0 x1 : FVec Ideal S512x2048 .f32) (wa wb : FVec Ideal S128x2048 .bf16) (b : FVec Ideal S1x128 .f32)
    (X Hh : Batch) (Wx Wh : Weight) (bx bh : Bias) (p : Fin 512) (q : Fin 128) (P : Fin 8192) (Q : Fin 2048)
    (h0 : ∀ k, x0 (ix2 p k) = X (ix2 P k)) (h1 : ∀ k, x1 (ix2 p k) = Hh (ix2 P k))
    (ha : ∀ k, wa (ix2 q k) = Wx (ix2 Q k)) (hb : ∀ k, wb (ix2 q k) = Wh (ix2 Q k))
    (hbias : b (ix2 (0 : Fin 1) q) = bx (ix1 Q) + bh (ix1 Q)) :
    Tile.tileGate x0 x1 wa wb b p q = gate X Hh Wx Wh bx bh P Q := by
  unfold Tile.tileGate gate
  rw [hbias,
    Finset.sum_congr rfl (fun k _ => (by rw [h0 k, ha k] : x0 (ix2 p k) * wa (ix2 q k) = X (ix2 P k) * Wx (ix2 Q k))),
    Finset.sum_congr rfl (fun k _ => (by rw [h1 k, hb k] : x1 (ix2 p k) * wb (ix2 q k) = Hh (ix2 P k) * Wh (ix2 Q k)))]

/-- The input gate of step t at (p, q) is the cell's at (512 i + p, 128 j + q). -/
theorem gateI_at (c : Dev nD) (t : Fin cfg0.N) (p : Fin 512) (q : Fin 128) (P : Fin 8192) (Q : Fin 2048) (hP : P.val = win0_15.index t (0 : Fin 2) * 512 + p.val) (hQ : Q.val = win0_15.index t (1 : Fin 2) * 128 + q.val) :
    Tile.tileGate (iblk m c 0 t) (iblk m c 1 t) (iblk m c 3 t) (iblk m c 7 t) (iblk m c 11 t) p q
      = gate (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) P Q :=
  tileGate_eq_gate (iblk m c 0 t) (iblk m c 1 t) (iblk m c 3 t) (iblk m c 7 t) (iblk m c 11 t) (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) p q P Q
    (fun k => read_x m c t p k P hP) (fun k => read_h m c t p k P hP)
    (fun k => read_w3 m c t q k Q hQ) (fun k => read_w7 m c t q k Q hQ) (read_b11 m c t q Q hQ)

/-- The forget gate of step t at (p, q) is the cell's at (512 i + p, 128 j + q). -/
theorem gateF_at (c : Dev nD) (t : Fin cfg0.N) (p : Fin 512) (q : Fin 128) (P : Fin 8192) (Q : Fin 2048) (hP : P.val = win0_15.index t (0 : Fin 2) * 512 + p.val) (hQ : Q.val = win0_15.index t (1 : Fin 2) * 128 + q.val) :
    Tile.tileGate (iblk m c 0 t) (iblk m c 1 t) (iblk m c 4 t) (iblk m c 8 t) (iblk m c 12 t) p q
      = gate (m ((c : Thread nD τ).loc main_arg0)) (m ((c : Thread nD τ).loc main_arg1)) (m ((c : Thread nD τ).loc main_arg7)) (m ((c : Thread nD τ).loc main_arg9)) (m ((c : Thread nD τ).loc main_arg8)) (m ((c : Thread nD τ).loc main_arg10)) P Q :=
  tileGate_eq_gate (iblk m c 0 t) (iblk m c 1 t) (iblk m c 4 t) (iblk m c 8 t) (iblk m c 12 t) (m ((c : Thread nD τ).loc main_arg0)) (m ((c : Thread nD τ).loc main_arg1)) (m ((c : Thread nD τ).loc main_arg7)) (m ((c : Thread nD τ).loc main_arg9)) (m ((c : Thread nD τ).loc main_arg8)) (m ((c : Thread nD τ).loc main_arg10)) p q P Q
    (fun k => read_x m c t p k P hP) (fun k => read_h m c t p k P hP)
    (fun k => read_w4 m c t q k Q hQ) (fun k => read_w8 m c t q k Q hQ) (read_b12 m c t q Q hQ)

/-- The candidate gate of step t at (p, q) is the cell's at (512 i + p, 128 j + q). -/
theorem gateG_at (c : Dev nD) (t : Fin cfg0.N) (p : Fin 512) (q : Fin 128) (P : Fin 8192) (Q : Fin 2048) (hP : P.val = win0_15.index t (0 : Fin 2) * 512 + p.val) (hQ : Q.val = win0_15.index t (1 : Fin 2) * 128 + q.val) :
    Tile.tileGate (iblk m c 0 t) (iblk m c 1 t) (iblk m c 5 t) (iblk m c 9 t) (iblk m c 13 t) p q
      = gate (m ((c : Thread nD τ).loc main_arg0)) (m ((c : Thread nD τ).loc main_arg1)) (m ((c : Thread nD τ).loc main_arg11)) (m ((c : Thread nD τ).loc main_arg13)) (m ((c : Thread nD τ).loc main_arg12)) (m ((c : Thread nD τ).loc main_arg14)) P Q :=
  tileGate_eq_gate (iblk m c 0 t) (iblk m c 1 t) (iblk m c 5 t) (iblk m c 9 t) (iblk m c 13 t) (m ((c : Thread nD τ).loc main_arg0)) (m ((c : Thread nD τ).loc main_arg1)) (m ((c : Thread nD τ).loc main_arg11)) (m ((c : Thread nD τ).loc main_arg13)) (m ((c : Thread nD τ).loc main_arg12)) (m ((c : Thread nD τ).loc main_arg14)) p q P Q
    (fun k => read_x m c t p k P hP) (fun k => read_h m c t p k P hP)
    (fun k => read_w5 m c t q k Q hQ) (fun k => read_w9 m c t q k Q hQ) (read_b13 m c t q Q hQ)

/-- The output gate of step t at (p, q) is the cell's at (512 i + p, 128 j + q). -/
theorem gateO_at (c : Dev nD) (t : Fin cfg0.N) (p : Fin 512) (q : Fin 128) (P : Fin 8192) (Q : Fin 2048) (hP : P.val = win0_15.index t (0 : Fin 2) * 512 + p.val) (hQ : Q.val = win0_15.index t (1 : Fin 2) * 128 + q.val) :
    Tile.tileGate (iblk m c 0 t) (iblk m c 1 t) (iblk m c 6 t) (iblk m c 10 t) (iblk m c 14 t) p q
      = gate (m ((c : Thread nD τ).loc main_arg0)) (m ((c : Thread nD τ).loc main_arg1)) (m ((c : Thread nD τ).loc main_arg15)) (m ((c : Thread nD τ).loc main_arg17)) (m ((c : Thread nD τ).loc main_arg16)) (m ((c : Thread nD τ).loc main_arg18)) P Q :=
  tileGate_eq_gate (iblk m c 0 t) (iblk m c 1 t) (iblk m c 6 t) (iblk m c 10 t) (iblk m c 14 t) (m ((c : Thread nD τ).loc main_arg0)) (m ((c : Thread nD τ).loc main_arg1)) (m ((c : Thread nD τ).loc main_arg15)) (m ((c : Thread nD τ).loc main_arg17)) (m ((c : Thread nD τ).loc main_arg16)) (m ((c : Thread nD τ).loc main_arg18)) p q P Q
    (fun k => read_x m c t p k P hP) (fun k => read_h m c t p k P hP)
    (fun k => read_w6 m c t q k Q hQ) (fun k => read_w10 m c t q k Q hQ) (read_b14 m c t q Q hQ)

/-- The tile's new cell state at (p, q) is the cell formula at (512 i + p, 128 j + q). -/
theorem tileCell_at (c : Dev nD) (t : Fin cfg0.N) (p : Fin 512) (q : Fin 128) (P : Fin 8192) (Q : Fin 2048) (hP : P.val = win0_15.index t (0 : Fin 2) * 512 + p.val) (hQ : Q.val = win0_15.index t (1 : Fin 2) * 128 + q.val) :
    Tile.tileCell (iblk m c 0 t) (iblk m c 1 t) (iblk m c 2 t) (iblk m c 3 t) (iblk m c 7 t) (iblk m c 11 t) (iblk m c 4 t) (iblk m c 8 t) (iblk m c 12 t) (iblk m c 5 t) (iblk m c 9 t) (iblk m c 13 t) p q = cellArr m c (ix2 P Q) := by
  unfold Tile.tileCell
  rw [gateF_at m c t p q P Q hP hQ, gateI_at m c t p q P Q hP hQ, gateG_at m c t p q P Q hP hQ,
    read_c m c t p q P Q hP hQ]
  rfl

/-- The tile's new hidden state at (p, q) is the cell formula at (512 i + p, 128 j + q). -/
theorem tileHidden_at (c : Dev nD) (t : Fin cfg0.N) (p : Fin 512) (q : Fin 128) (P : Fin 8192) (Q : Fin 2048) (hP : P.val = win0_15.index t (0 : Fin 2) * 512 + p.val) (hQ : Q.val = win0_15.index t (1 : Fin 2) * 128 + q.val) :
    Ideal.logistic (Tile.tileGate (iblk m c 0 t) (iblk m c 1 t) (iblk m c 6 t) (iblk m c 10 t) (iblk m c 14 t) p q) * Ideal.tanh (Tile.tileCell (iblk m c 0 t) (iblk m c 1 t) (iblk m c 2 t) (iblk m c 3 t) (iblk m c 7 t) (iblk m c 11 t) (iblk m c 4 t) (iblk m c 8 t) (iblk m c 12 t) (iblk m c 5 t) (iblk m c 9 t) (iblk m c 13 t) p q)
      = hiddenArr m c (ix2 P Q) := by
  rw [gateO_at m c t p q P Q hP hQ, tileCell_at m c t p q P Q hP hQ]
  rfl

/-! ## What each step writes back is its tile of the formula -/

theorem hz : (![0, 0] : Fin 2 → Nat) = fun _ => 0 := funext fun a => by fin_cases a <;> rfl

/-- Step t writes tile t of the new hidden state. -/
theorem flushed15_eq (c : Dev nD) (t : Fin cfg0.N) :
    (dats m 0 c).flushed 15 t = ((cfg0.win 15).blk t).view.read (Elt Ideal) (hiddenArr m c) := by
  rw [Cert.KernelIdeal.Value.flushed15]
  unfold out0_15
  rw [View.canon_unit_zero hz]
  simp only [View.ld_unit_zero (S := S512x2048) hz, View.ld_unit_zero (S := S512x128) hz,
    View.ld_unit_zero (S := S128x2048) hz, View.ld_unit_zero (S := S1x128) hz]
  funext y
  obtain ⟨p, q, rfl⟩ : ∃ (p : Fin 512) (q : Fin 128), y = ix2 p q := ⟨y 0, y 1, eq_ix2 y⟩
  obtain ⟨-, -, -, -, -, -, -, -, hI, hJ⟩ := idx_rows t
  have hp := p.isLt
  have hq := q.isLt
  have hj : ((cfg0.win 15).blk t).view.emb (ix2 p q)
      = ix2 (⟨win0_15.index t (0 : Fin 2) * 512 + p.val, by omega⟩ : Fin 8192) (⟨win0_15.index t (1 : Fin 2) * 128 + q.val, by omega⟩ : Fin 2048) := by
    funext a; apply Fin.ext
    match a with
    | ⟨0, _⟩ => show win0_15.index t (0 : Fin 2) * 512 + 1 * p.val = win0_15.index t (0 : Fin 2) * 512 + p.val; omega
    | ⟨1, _⟩ => show win0_15.index t (1 : Fin 2) * 128 + 1 * q.val = win0_15.index t (1 : Fin 2) * 128 + q.val; omega
  refine (Tile.hidden_entry (iblk m c 0 t) (iblk m c 1 t) (iblk m c 2 t) (iblk m c 3 t) (iblk m c 7 t) (iblk m c 11 t) (iblk m c 4 t) (iblk m c 8 t) (iblk m c 12 t) (iblk m c 5 t) (iblk m c 9 t) (iblk m c 13 t) (iblk m c 6 t) (iblk m c 10 t) (iblk m c 14 t) p q).trans ?_
  exact (tileHidden_at m c t p q _ _ rfl rfl).trans (congrArg (hiddenArr m c) hj.symm)

/-- Step t writes tile t of the new cell state. -/
theorem flushed16_eq (c : Dev nD) (t : Fin cfg0.N) :
    (dats m 0 c).flushed 16 t = ((cfg0.win 16).blk t).view.read (Elt Ideal) (cellArr m c) := by
  rw [Cert.KernelIdeal.Value.flushed16]
  unfold out0_16
  rw [View.canon_unit_zero hz]
  simp only [View.ld_unit_zero (S := S512x2048) hz, View.ld_unit_zero (S := S512x128) hz,
    View.ld_unit_zero (S := S128x2048) hz, View.ld_unit_zero (S := S1x128) hz]
  funext y
  obtain ⟨p, q, rfl⟩ : ∃ (p : Fin 512) (q : Fin 128), y = ix2 p q := ⟨y 0, y 1, eq_ix2 y⟩
  obtain ⟨-, -, -, -, -, -, e0, e1, hI, hJ⟩ := idx_rows t
  have hp := p.isLt
  have hq := q.isLt
  have hj : ((cfg0.win 16).blk t).view.emb (ix2 p q)
      = ix2 (⟨win0_15.index t (0 : Fin 2) * 512 + p.val, by omega⟩ : Fin 8192) (⟨win0_15.index t (1 : Fin 2) * 128 + q.val, by omega⟩ : Fin 2048) := by
    funext a; apply Fin.ext
    match a with
    | ⟨0, _⟩ => show win0_16.index t (0 : Fin 2) * 512 + 1 * p.val = win0_15.index t (0 : Fin 2) * 512 + p.val; rw [e0]; omega
    | ⟨1, _⟩ => show win0_16.index t (1 : Fin 2) * 128 + 1 * q.val = win0_15.index t (1 : Fin 2) * 128 + q.val; rw [e1]; omega
  refine (Tile.cell_entry (iblk m c 0 t) (iblk m c 1 t) (iblk m c 2 t) (iblk m c 3 t) (iblk m c 7 t) (iblk m c 11 t) (iblk m c 4 t) (iblk m c 8 t) (iblk m c 12 t) (iblk m c 5 t) (iblk m c 9 t) (iblk m c 13 t) p q).trans ?_
  exact (tileCell_at m c t p q _ _ rfl rfl).trans (congrArg (cellArr m c) hj.symm)

/-! ## The tiles cover the array -/

/-- An entry is in step t's tile iff each coordinate is in the tile's range on its axis. -/
theorem mem_blk15 (t : Fin cfg0.N) (i : S8192x2048.Idx) :
    i ∈ ((cfg0.win 15).blk t).view.set ↔ ∀ a : Fin 2, win0_15.index t a * S512x128.size a ≤ (i a).val ∧ (i a).val < win0_15.index t a * S512x128.size a + S512x128.size a := by
  show i ∈ ((View.whole main_v16_0).slice (win0_15.rect t)).set ↔ _
  rw [View.set_slice_whole, Rect.mem_set_unit]
  exact Iff.rfl

/-- Entry (r, s) lies in the tile of the step with block indices (r / 512, s / 128). -/
theorem cover15 (i : S8192x2048.Idx) :
    ∃ t : Fin cfg0.N, (cfg0.win 15).flush t = true ∧ i ∈ ((cfg0.win 15).blk t).view.set := by
  have hi0 : (i 0).val < 8192 := (i 0).isLt
  have hi1 : (i 1).val < 2048 := (i 1).isLt
  obtain ⟨t, ht⟩ := idx_onto15 ⟨(i 0).val / 512, by omega⟩ ⟨(i 1).val / 128, by omega⟩
  have q0 : win0_15.index t (0 : Fin 2) = (i 0).val / 512 := congrFun ht 0
  have q1 : win0_15.index t (1 : Fin 2) = (i 1).val / 128 := congrFun ht 1
  refine ⟨t, flush0_15 t, ?_⟩
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 128 ≤ (i 1).val ∧ (i 1).val < win0_15.index t (1 : Fin 2) * 128 + 128; omega

/-- An entry is in step t's tile iff each coordinate is in the tile's range on its axis. -/
theorem mem_blk16 (t : Fin cfg0.N) (i : S8192x2048.Idx) :
    i ∈ ((cfg0.win 16).blk t).view.set ↔ ∀ a : Fin 2, win0_16.index t a * S512x128.size a ≤ (i a).val ∧ (i a).val < win0_16.index t a * S512x128.size a + S512x128.size a := by
  show i ∈ ((View.whole main_v16_1).slice (win0_16.rect t)).set ↔ _
  rw [View.set_slice_whole, Rect.mem_set_unit]
  exact Iff.rfl

/-- Entry (r, s) lies in the tile of the step with block indices (r / 512, s / 128). -/
theorem cover16 (i : S8192x2048.Idx) :
    ∃ t : Fin cfg0.N, (cfg0.win 16).flush t = true ∧ i ∈ ((cfg0.win 16).blk t).view.set := by
  have hi0 : (i 0).val < 8192 := (i 0).isLt
  have hi1 : (i 1).val < 2048 := (i 1).isLt
  obtain ⟨t, ht⟩ := idx_onto16 ⟨(i 0).val / 512, by omega⟩ ⟨(i 1).val / 128, by omega⟩
  have q0 : win0_16.index t (0 : Fin 2) = (i 0).val / 512 := congrFun ht 0
  have q1 : win0_16.index t (1 : Fin 2) = (i 1).val / 128 := congrFun ht 1
  refine ⟨t, flush0_16 t, ?_⟩
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 128 ≤ (i 1).val ∧ (i 1).val < win0_16.index t (1 : Fin 2) * 128 + 128; omega

/-! ## The result arrays, and the run -/

/-- After all steps the first result array is the new hidden state of the argument arrays. -/
theorem final15 (c : Dev nD) : (dats m 0 c).arrAt 15 cfg0.N = hiddenArr m c :=
  (dats m 0 c).arrAt_eq_of_cover 15 (hiddenArr m c) (fun t _ => flushed15_eq m c t) (cover15)

/-- After all steps the second result array is the new cell state of the argument arrays. -/
theorem final16 (c : Dev nD) : (dats m 0 c).arrAt 16 cfg0.N = cellArr m c :=
  (dats m 0 c).arrAt_eq_of_cover 16 (cellArr m c) (fun t _ => flushed16_eq m c t) (cover16)

/-- Every fair execution ends with the two results at the cell's formula of the arguments, the arguments unchanged. -/
theorem run : θ_run defs (onTc (τ := τ) (main (F := Ideal))) ⟨m, fun _ => 0, ρ⟩ fun r => ∀ c : Dev nD,
      r.2.mem ((c : Thread nD τ).loc main_v16_0) = hiddenArr m c
      ∧ r.2.mem ((c : Thread nD τ).loc main_v16_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final15 m c), (h c).2.1.trans (final16 m c), (h c).2.2⟩)
    (Cert.KernelIdeal.Value.run_blocks (F := Ideal) m ρ)

end Cert.KernelIdeal.Whole

end
-- ==== Proof.RefValue.lean ====
/-
  The reference computes the same cell, laid out differently.

  It stacks the four input-side weight matrices into one 8192 × 2048 matrix (gate g owns rows 2048 g … 2048 g +
  2047), likewise the four hidden-side matrices, and the four summed biases into one vector of 8192; it forms
  x · Wxᵀ + h · Whᵀ + b as one 8192 × 8192 array and cuts it into four bands of 2048 columns. Column 2048 g + q
  of that array at row p is therefore gate g's pre-activation at (p, q): row 2048 g + q of a stack is row q of its
  g-th piece. The logistic function is spelt out as 1 / (1 + exp(−z)), which is its definition on the extended
  reals, the constant 1.0 being the real number one.
-/
import proofs.«162844_j57990648430624_2_alg».proof.Proof.Gen.ReferenceIdeal.Read
import proofs.«162844_j57990648430624_2_alg».proof.Proof.LstmSpec
import Idealize.ShloMosaic.Lib.Pipeline.Value
import Idealize.ShloMosaic.Lib.ValueIdx
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.LstmCell

/-- Row 2048 g + q of four 2048-row matrices stacked one above the other is row q of the g-th. -/
theorem stacked_rows_entry (y0 y1 y2 y3 : Weight)
    (h : Shape.Concatenates [S2048x2048, S2048x2048, S2048x2048, S2048x2048] S8192x2048 (0 : Fin 2))
    (j : S8192x2048.Idx) (g : Fin 4) (Q k : Fin 2048)
    (hj0 : (j 0).val = g.val * 2048 + Q.val) (hj1 : (j 1).val = k.val) :
    concatenate S8192x2048 (0 : Fin 2) [⟨S2048x2048, y0⟩, ⟨S2048x2048, y1⟩, ⟨S2048x2048, y2⟩, ⟨S2048x2048, y3⟩] h j
      = (![y0, y1, y2, y3] g) (ix2 Q k) := by
  have hQ := Q.isLt
  exact concatenate_ofFn_apply (t := S8192x2048) (s₁ := S2048x2048) (0 : Fin 2) (![y0, y1, y2, y3]) h rfl 2048 rfl j g
    (by rw [hj0]; omega) (ix2 Q k) (by show Q.val = (j 0).val % 2048; rw [hj0]; omega)
    (fun b hb => match b, hb with | ⟨0, _⟩, hb => absurd rfl hb | ⟨1, _⟩, _ => hj1.symm)

/-- Entry 2048 g + q of four vectors of 2048 laid end to end is entry q of the g-th. -/
theorem stacked_bias_entry (b0 b1 b2 b3 : Bias)
    (h : Shape.Concatenates [S2048, S2048, S2048, S2048] S8192 (0 : Fin 1))
    (j : S8192.Idx) (g : Fin 4) (Q : Fin 2048) (hj : (j 0).val = g.val * 2048 + Q.val) :
    concatenate S8192 (0 : Fin 1) [⟨S2048, b0⟩, ⟨S2048, b1⟩, ⟨S2048, b2⟩, ⟨S2048, b3⟩] h j = (![b0, b1, b2, b3] g) (ix1 Q) := by
  have hQ := Q.isLt
  exact concatenate_ofFn_apply (t := S8192) (s₁ := S2048) (0 : Fin 1) (![b0, b1, b2, b3]) h rfl 2048 rfl j g
    (by rw [hj]; omega) (ix1 Q) (by show Q.val = (j 0).val % 2048; rw [hj]; omega)
    (fun b hb => match b, hb with | ⟨0, _⟩, hb => absurd rfl hb)

/-- Picking the g-th of four entrywise sums is the sum of the g-th picks. -/
theorem pick_sum (a0 a1 a2 a3 b0 b1 b2 b3 : Bias) (g : Fin 4) (i : S2048.Idx) :
    (![addf (F := Ideal) (φ := .f32) a0 b0, addf (F := Ideal) (φ := .f32) a1 b1, addf (F := Ideal) (φ := .f32) a2 b2,
        addf (F := Ideal) (φ := .f32) a3 b3] g) i
      = (![a0, a1, a2, a3] g) i + (![b0, b1, b2, b3] g) i := by
  fin_cases g <;> rfl

/-- The 8192 × 8192 array of all pre-activations: at row P and column 2048 g + Q it is gate g's at (P, Q). -/
theorem gates_entry (x0 : Batch) (x1 : Batch) (x3 : Weight) (x4 : Bias) (x5 : Weight) (x6 : Bias) (x7 : Weight) (x8 : Bias) (x9 : Weight) (x10 : Bias) (x11 : Weight) (x12 : Bias) (x13 : Weight) (x14 : Bias) (x15 : Weight) (x16 : Bias) (x17 : Weight) (x18 : Bias) (j : S8192x8192.Idx) (g : Fin 4) (P : Fin 8192) (Q : Fin 2048)
    (hj0 : (j 0).val = P.val) (hj1 : (j 1).val = g.val * 2048 + Q.val) :
    val_main_v14 (F := Ideal) x0 x1 x3 x4 x5 x6 x7 x8 x9 x10 x11 x12 x13 x14 x15 x16 x17 x18 j
      = gate x0 x1 (![x3, x7, x11, x15] g) (![x5, x9, x13, x17] g) (![x4, x8, x12, x16] g) (![x6, x10, x14, x18] g) P Q := by
  rw [val_main_v14_apply, val_main_v11_apply, val_main_v8_apply, val_main_v10_apply, val_main_v13_apply, val_main_v12_apply]
  unfold gate
  show ((∑ k : Fin 2048, x0 (lidx_main_v8 j k) * val_main_v7 (F := Ideal) x3 x7 x11 x15 (ridx_main_v8 j k))
      + ∑ k : Fin 2048, x1 (lidx_main_v10 j k) * val_main_v9 (F := Ideal) x5 x9 x13 x17 (ridx_main_v10 j k))
      + val_main_v6 (F := Ideal) x4 x6 x8 x10 x12 x14 x16 x18 (idx_main_v12 (idx_main_v13 j)) = _
  congr 1
  · congr 1
    · refine Finset.sum_congr rfl fun k _ => ?_
      rw [val_main_v7_apply]
      congr 1
      · exact congrArg x0 (funext fun a => Fin.ext (by match a with | ⟨0, _⟩ => exact hj0 | ⟨1, _⟩ => rfl))
      · exact stacked_rows_entry x3 x7 x11 x15 _ _ g Q k hj1 rfl
    · refine Finset.sum_congr rfl fun k _ => ?_
      rw [val_main_v9_apply]
      congr 1
      · exact congrArg x1 (funext fun a => Fin.ext (by match a with | ⟨0, _⟩ => exact hj0 | ⟨1, _⟩ => rfl))
      · exact stacked_rows_entry x5 x9 x13 x17 _ _ g Q k hj1 rfl
  · refine (stacked_bias_entry (val_main_v2 (F := Ideal) x4 x6) (val_main_v3 (F := Ideal) x8 x10) (val_main_v4 (F := Ideal) x12 x14)
      (val_main_v5 (F := Ideal) x16 x18) _ _ g Q hj1).trans ?_
    exact pick_sum x4 x8 x12 x16 x6 x10 x14 x18 g (ix1 Q)

/-- One over one plus the exponential of −z, with the constant 1.0, is the logistic function of z. -/
theorem sigmoid_expansion (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  rw [Ideal.ofBits_def, Ideal.ofBits_one_f32]
  rfl

/-- The input gate: the logistic function of the first band of columns. -/
theorem sigI_entry (x0 : Batch) (x1 : Batch) (x3 : Weight) (x4 : Bias) (x5 : Weight) (x6 : Bias) (x7 : Weight) (x8 : Bias) (x9 : Weight) (x10 : Bias) (x11 : Weight) (x12 : Bias) (x13 : Weight) (x14 : Bias) (x15 : Weight) (x16 : Bias) (x17 : Weight) (x18 : Bias) (P : Fin 8192) (Q : Fin 2048) :
    val_main_v21 (F := Ideal) x0 x1 x3 x4 x5 x6 x7 x8 x9 x10 x11 x12 x13 x14 x15 x16 x17 x18 (ix2 P Q) = Ideal.logistic (gate x0 x1 x3 x5 x4 x6 P Q) := by
  rw [val_main_v21_apply, val_main_v20_apply, val_main_cst_0_apply, val_main_v19_apply, val_main_v18_apply, val_main_cst_apply, val_main_v17_apply, val_main_v16_apply, val_main_v15_apply,
    gates_entry x0 x1 x3 x4 x5 x6 x7 x8 x9 x10 x11 x12 x13 x14 x15 x16 x17 x18 (idx_main_v15 (ix2 P Q)) (0 : Fin 4) P Q rfl (by show Q.val = 0 * 2048 + Q.val; omega)]
  exact sigmoid_expansion _

/-- The forget gate: the logistic function of the second band of columns. -/
theorem sigF_entry (x0 : Batch) (x1 : Batch) (x3 : Weight) (x4 : Bias) (x5 : Weight) (x6 : Bias) (x7 : Weight) (x8 : Bias) (x9 : Weight) (x10 : Bias) (x11 : Weight) (x12 : Bias) (x13 : Weight) (x14 : Bias) (x15 : Weight) (x16 : Bias) (x17 : Weight) (x18 : Bias) (P : Fin 8192) (Q : Fin 2048) :
    val_main_v28 (F := Ideal) x0 x1 x3 x4 x5 x6 x7 x8 x9 x10 x11 x12 x13 x14 x15 x16 x17 x18 (ix2 P Q) = Ideal.logistic (gate x0 x1 x7 x9 x8 x10 P Q) := by
  rw [val_main_v28_apply, val_main_v27_apply, val_main_cst_2_apply, val_main_v26_apply, val_main_v25_apply, val_main_cst_1_apply, val_main_v24_apply, val_main_v23_apply, val_main_v22_apply,
    gates_entry x0 x1 x3 x4 x5 x6 x7 x8 x9 x10 x11 x12 x13 x14 x15 x16 x17 x18 (idx_main_v22 (ix2 P Q)) (1 : Fin 4) P Q rfl (by show 2048 + Q.val = 1 * 2048 + Q.val; omega)]
  exact sigmoid_expansion _

/-- The output gate: the logistic function of the fourth band of columns. -/
theorem sigO_entry (x0 : Batch) (x1 : Batch) (x3 : Weight) (x4 : Bias) (x5 : Weight) (x6 : Bias) (x7 : Weight) (x8 : Bias) (x9 : Weight) (x10 : Bias) (x11 : Weight) (x12 : Bias) (x13 : Weight) (x14 : Bias) (x15 : Weight) (x16 : Bias) (x17 : Weight) (x18 : Bias) (P : Fin 8192) (Q : Fin 2048) :
    val_main_v37 (F := Ideal) x0 x1 x3 x4 x5 x6 x7 x8 x9 x10 x11 x12 x13 x14 x15 x16 x17 x18 (ix2 P Q) = Ideal.logistic (gate x0 x1 x15 x17 x16 x18 P Q) := by
  rw [val_main_v37_apply, val_main_v36_apply, val_main_cst_4_apply, val_main_v35_apply, val_main_v34_apply, val_main_cst_3_apply, val_main_v33_apply, val_main_v32_apply, val_main_v31_apply,
    gates_entry x0 x1 x3 x4 x5 x6 x7 x8 x9 x10 x11 x12 x13 x14 x15 x16 x17 x18 (idx_main_v31 (ix2 P Q)) (3 : Fin 4) P Q rfl (by show 6144 + Q.val = 3 * 2048 + Q.val; omega)]
  exact sigmoid_expansion _

/-- The candidate: tanh of the third band of columns. -/
theorem tanhG_entry (x0 : Batch) (x1 : Batch) (x3 : Weight) (x4 : Bias) (x5 : Weight) (x6 : Bias) (x7 : Weight) (x8 : Bias) (x9 : Weight) (x10 : Bias) (x11 : Weight) (x12 : Bias) (x13 : Weight) (x14 : Bias) (x15 : Weight) (x16 : Bias) (x17 : Weight) (x18 : Bias) (P : Fin 8192) (Q : Fin 2048) :
    val_main_v30 (F := Ideal) x0 x1 x3 x4 x5 x6 x7 x8 x9 x10 x11 x12 x13 x14 x15 x16 x17 x18 (ix2 P Q) = Ideal.tanh (gate x0 x1 x11 x13 x12 x14 P Q) := by
  rw [val_main_v30_apply, val_main_v29_apply,
    gates_entry x0 x1 x3 x4 x5 x6 x7 x8 x9 x10 x11 x12 x13 x14 x15 x16 x17 x18 (idx_main_v29 (ix2 P Q)) (2 : Fin 4) P Q rfl (by show 4096 + Q.val = 2 * 2048 + Q.val; omega)]
  rfl

/-- The reference's second result is the new cell state. -/
theorem cell_eq (x0 : Batch) (x1 : Batch) (x2 : Batch) (x3 : Weight) (x4 : Bias) (x5 : Weight) (x6 : Bias) (x7 : Weight) (x8 : Bias) (x9 : Weight) (x10 : Bias) (x11 : Weight) (x12 : Bias) (x13 : Weight) (x14 : Bias) (x15 : Weight) (x16 : Bias) (x17 : Weight) (x18 : Bias) :
    val_main_v40 (F := Ideal) x0 x1 x2 x3 x4 x5 x6 x7 x8 x9 x10 x11 x12 x13 x14 x15 x16 x17 x18 = cellNext x0 x1 x2 x3 x4 x5 x6 x7 x8 x9 x10 x11 x12 x13 x14 := by
  funext j
  obtain ⟨P, Q, rfl⟩ : ∃ (P : Fin 8192) (Q : Fin 2048), j = ix2 P Q := ⟨j 0, j 1, eq_ix2 j⟩
  rw [val_main_v40_apply, val_main_v38_apply, val_main_v39_apply, sigF_entry, sigI_entry, tanhG_entry]
  rfl

/-- The reference's first result is the new hidden state. -/
theorem hidden_eq (x0 : Batch) (x1 : Batch) (x2 : Batch) (x3 : Weight) (x4 : Bias) (x5 : Weight) (x6 : Bias) (x7 : Weight) (x8 : Bias) (x9 : Weight) (x10 : Bias) (x11 : Weight) (x12 : Bias) (x13 : Weight) (x14 : Bias) (x15 : Weight) (x16 : Bias) (x17 : Weight) (x18 : Bias) :
    val_main_v42 (F := Ideal) x0 x1 x2 x3 x4 x5 x6 x7 x8 x9 x10 x11 x12 x13 x14 x15 x16 x17 x18 = hiddenNext x0 x1 x2 x3 x4 x5 x6 x7 x8 x9 x10 x11 x12 x13 x14 x15 x16 x17 x18 := by
  funext j
  obtain ⟨P, Q, rfl⟩ : ∃ (P : Fin 8192) (Q : Fin 2048), j = ix2 P Q := ⟨j 0, j 1, eq_ix2 j⟩
  rw [val_main_v42_apply, val_main_v41_apply, sigO_entry, congrFun (cell_eq x0 x1 x2 x3 x4 x5 x6 x7 x8 x9 x10 x11 x12 x13 x14 x15 x16 x17 x18) (ix2 P Q)]
  rfl

end Cert.ReferenceIdeal.RefValue

end
-- ==== Proof.lean ====
/-
  A fused LSTM-cell step against its plain formulation, on the extended reals.

  Both programs compute, for every batch row p and hidden unit q, the four gate pre-activations
  z = x · Wxᵀ + h · Whᵀ + (bx + bh), then c' = σ(z_f) · c + σ(z_i) · tanh(z_g) and h' = σ(z_o) · tanh(c').
  The tiled program forms each z on a 512 × 128 tile as ONE product [x | h] · [Wx | Wh]ᵀ over 4096 positions
  (operands narrowed to fewer bits, the identity on exact values) and uses the logistic function directly; the
  plain program stacks the four gates' weights and biases, forms one 8192 × 8192 array, cuts it into four bands
  and spells the logistic function as 1 / (1 + exp(−z)). Cutting the sum over 4096 positions at 2048, and
  reading a stack or a band at an index, bring both to the same term (Proof/LstmSpec.lean): no rearrangement of
  an infinite value is involved, so the equality holds for all extended-real inputs and the finiteness
  precondition is not used. The idealization rewrote nothing, so the preservation claim is trivially true.

  Modules: LstmSpec (the formula) · LibDotRows, LibJoinedDot (a product of rows; of joined rows) · TileValue
  (one grid step) · ArrayValue (the 256 steps' tiles are the whole arrays) · RefValue (the plain program is the
  formula).
-/
import proofs.«162844_j57990648430624_2_alg».proof.Defs
import proofs.«162844_j57990648430624_2_alg».proof.Proof.Gen.Kernel
import proofs.«162844_j57990648430624_2_alg».proof.Proof.Gen.Kernel.Skeleton
import proofs.«162844_j57990648430624_2_alg».proof.Proof.Gen.Kernel.Launch
import proofs.«162844_j57990648430624_2_alg».proof.Proof.Gen.Kernel.Points
import proofs.«162844_j57990648430624_2_alg».proof.Proof.Gen.Kernel.Frame
import proofs.«162844_j57990648430624_2_alg».proof.Proof.Gen.KernelIdeal
import proofs.«162844_j57990648430624_2_alg».proof.Proof.Gen.KernelIdeal.Skeleton
import proofs.«162844_j57990648430624_2_alg».proof.Proof.Gen.KernelIdeal.Launch
import proofs.«162844_j57990648430624_2_alg».proof.Proof.Gen.KernelIdeal.Points
import proofs.«162844_j57990648430624_2_alg».proof.Proof.Gen.KernelIdeal.Frame
import proofs.«162844_j57990648430624_2_alg».proof.Proof.Gen.ReferenceIdeal
import proofs.«162844_j57990648430624_2_alg».proof.Proof.Gen.Pre_finite_inputs
import proofs.«162844_j57990648430624_2_alg».proof.Proof.Gen.KernelIdeal.Value
import proofs.«162844_j57990648430624_2_alg».proof.Proof.Gen.ReferenceIdeal.Run
import proofs.«162844_j57990648430624_2_alg».proof.Proof.Gen.ReferenceIdeal.Read
import proofs.«162844_j57990648430624_2_alg».proof.Proof.ArrayValue
import proofs.«162844_j57990648430624_2_alg».proof.Proof.RefValue
import Idealize.ShloMosaic.Adequacy
import Idealize.ShloMosaic.Init

noncomputable section

namespace Cert.Proof

open Idealize.ShloMosaic Idealize.SL.Sem Cert.Kernel

/-- The tiled program as printed terminates without a fault and leaves its arguments as they were. -/
theorem frame_kernel : Cert.frame_Kernel := fun m ρ _ => Cert.Kernel.Gen.frame m ρ

/-- So does the tiled program read on the extended reals. -/
theorem frame_kernelIdeal : Cert.frame_KernelIdeal := fun m ρ _ => Cert.KernelIdeal.Gen.frame m ρ

/-- The plain program is a straight line of whole-array operations: it terminates with its arguments unchanged. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten when the tiled program was read on the extended reals. -/
theorem preserves : Cert.preserves_Kernel_KernelIdeal := trivial

/-- From equal arguments both programs end with the new hidden state and the new cell state of the LSTM cell's
    formula: the tiled one tile by tile, the plain one band by band. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18⟩ := hagree c
    rw [Cert.ReferenceIdeal.Read.val_main_v42_eq, Cert.ReferenceIdeal.RefValue.hidden_eq,
      h0, h1, h2, h3, h4, h5, h6, h7, h8, h9, h10, h11, h12, h13, h14, h15, h16, h17, h18]
  · obtain ⟨h0, h1, h2, h3, h4, h5, h6, h7, h8, h9, h10, h11, h12, h13, h14, h15, h16, h17, h18⟩ := hagree c
    rw [Cert.ReferenceIdeal.Read.val_main_v40_eq, Cert.ReferenceIdeal.RefValue.cell_eq,
      h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
